-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x128 : Shape := ⟨3, ![32, 64, 128]⟩
abbrev S32x64x128x128 : Shape := ⟨4, ![32, 64, 128, 128]⟩
abbrev S_ : Shape := ⟨0, ![]⟩

class Facts : Prop where
  bcast_S_S32x64x128 : S_.BroadcastsInDim S32x64x128 (![] : Fin 0 → Fin S32x64x128.rank)
  reducesTo_S32x64x128_S_d0_1_2 : S32x64x128.ReducesTo [0, 1, 2] S_
  h_S_ : 0 < S_.numel
  bcast_S_S32x64x128x128 : S_.BroadcastsInDim S32x64x128x128 (![] : Fin 0 → Fin S32x64x128x128.rank)
  reducesTo_S32x64x128x128_S_d0_1_2_3 : S32x64x128x128.ReducesTo [0, 1, 2, 3] S_

variable [Facts]

def fn {F : FTy → Type} [FloatOps F] (main_arg0 : FVec F S32x64x128 .f32) (main_arg1 : FVec F S32x64x128x128 .f32) : IVec S_ 1 :=
  let main_v0 : FVec F S32x64x128 .f32 := Host.absf main_arg0
  let main_cst : FVec F S_ .f32 := constant S_ .f32 0x7F800000#32
  let main_v1 : FVec F S32x64x128 .f32 := broadcastInDim S32x64x128 ![] bcast_S_S32x64x128 main_cst
  let main_v2 : IVec S32x64x128 1 := cmpf .olt main_v0 main_v1
  let main_c : IVec S_ 1 := constantI S_ 1 1#1
  let main_v3 : IVec S_ 1 := (fun x v => Host.reduce IntOp.andi x v reducesTo_S32x64x128_S_d0_1_2 h_S_) main_v2 main_c
  let main_v4 : FVec F S32x64x128x128 .f32 := Host.absf main_arg1
  let main_cst_0 : FVec F S_ .f32 := constant S_ .f32 0x7F800000#32
  let main_v5 : FVec F S32x64x128x128 .f32 := broadcastInDim S32x64x128x128 ![] bcast_S_S32x64x128x128 main_cst_0
  let main_v6 : IVec S32x64x128x128 1 := cmpf .olt main_v4 main_v5
  let main_c_1 : IVec S_ 1 := constantI S_ 1 1#1
  let main_v7 : IVec S_ 1 := (fun x v => Host.reduce IntOp.andi x v reducesTo_S32x64x128x128_S_d0_1_2_3 h_S_) main_v6 main_c_1
  let main_v8 : IVec S_ 1 := andi main_v3 main_v7
  main_v8
-- ==== Kernel.lean ====
abbrev S32x64x128 : Shape := ⟨3, ![32, 64, 128]⟩
abbrev S32x64x128x128 : Shape := ⟨4, ![32, 64, 128, 128]⟩
abbrev S1x64x128 : Shape := ⟨3, ![1, 64, 128]⟩
abbrev S1x64x128x128 : Shape := ⟨4, ![1, 64, 128, 128]⟩
abbrev S64x128 : Shape := ⟨2, ![64, 128]⟩
abbrev S64x128x128 : Shape := ⟨3, ![64, 128, 128]⟩
abbrev S64x1x128 : Shape := ⟨3, ![64, 1, 128]⟩
abbrev S64x128x1 : Shape := ⟨3, ![64, 128, 1]⟩

abbrev nBuf : Space → Nat
  | .hbm => 4
  | .vmem => 8
  | .smem => 0
  | _ => 0

abbrev bufTy : (tb : Table) → Fin (tcTables nBuf tb) → BufTy
  | .hbm, ⟨0, _⟩ => ⟨S32x64x128, .f32⟩
  | .hbm, ⟨1, _⟩ => ⟨S32x64x128x128, .f32⟩
  | .hbm, ⟨2, _⟩ => ⟨S32x64x128, .f32⟩
  | .hbm, ⟨3, _⟩ => ⟨S32x64x128x128, .f32⟩
  | .local _ .vmem, ⟨0, _⟩ => ⟨S1x64x128, .f32⟩
  | .local _ .vmem, ⟨1, _⟩ => ⟨S1x64x128, .f32⟩
  | .local _ .vmem, ⟨2, _⟩ => ⟨S1x64x128x128, .f32⟩
  | .local _ .vmem, ⟨3, _⟩ => ⟨S1x64x128x128, .f32⟩
  | .local _ .vmem, ⟨4, _⟩ => ⟨S1x64x128, .f32⟩
  | .local _ .vmem, ⟨5, _⟩ => ⟨S1x64x128, .f32⟩
  | .local _ .vmem, ⟨6, _⟩ => ⟨S1x64x128x128, .f32⟩
  | .local _ .vmem, ⟨7, _⟩ => ⟨S1x64x128x128, .f32⟩
  | _, _ => ⟨S32x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  natLt_1_32 : 1 < 32
  shapeCasts_S64x128_S1x64x128 : S64x128.ShapeCasts S1x64x128
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128_S64x1x128 : S64x128.ShapeCasts S64x1x128
  broadcasts_S64x1x128_S64x128x128 : S64x1x128.Broadcasts S64x128x128
  shapeCasts_S64x128_S64x128x1 : S64x128.ShapeCasts S64x128x1
  broadcasts_S64x128x1_S64x128x128 : S64x128x1.Broadcasts S64x128x128
  shapeCasts_S64x128x128_S1x64x128x128 : S64x128x128.ShapeCasts S1x64x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S32x64x128.size a
  hwx0_0 : ∀ i : grid0.Coords, EltTy.bits .f32 = 32 ∨ (Rect.block (s := S32x64x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128x128.size a ≤ S32x64x128x128.size a
  hwx0_1 : ∀ i : grid0.Coords, EltTy.bits .f32 = 32 ∨ (Rect.block (s := S32x64x128x128) S1x64x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S32x64x128.size a
  hwx0_2 : ∀ i : grid0.Coords, EltTy.bits .f32 = 32 ∨ (Rect.block (s := S32x64x128) S1x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x128x128.size a ≤ S32x64x128x128.size a
  hwx0_3 : ∀ i : grid0.Coords, EltTy.bits .f32 = 32 ∨ (Rect.block (s := S32x64x128x128) S1x64x128x128.size (cc0_transform_3 i) (hinb0_3 i)).WholeWords (EltTy.packing .f32)

variable [Facts₀]

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x64x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x64x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x64x128 : Shape := ⟨3, ![32, 64, 128]⟩
abbrev S32x64x128x128 : Shape := ⟨4, ![32, 64, 128, 128]⟩
abbrev S_ : Shape := ⟨0, ![]⟩
abbrev S32x64x128x1 : Shape := ⟨4, ![32, 64, 128, 1]⟩
abbrev S32x64x1x128 : Shape := ⟨4, ![32, 64, 1, 128]⟩

abbrev nBuf : Space → Nat
  | .hbm => 15
  | .vmem => 0
  | .smem => 0
  | _ => 0

abbrev bufTy : (tb : Table) → Fin (tcTables nBuf tb) → BufTy
  | .hbm, ⟨0, _⟩ => ⟨S32x64x128, .f32⟩
  | .hbm, ⟨1, _⟩ => ⟨S32x64x128x128, .f32⟩
  | .hbm, ⟨2, _⟩ => ⟨S_, .f32⟩
  | .hbm, ⟨3, _⟩ => ⟨S32x64x128, .f32⟩
  | .hbm, ⟨4, _⟩ => ⟨S32x64x128, .f32⟩
  | .hbm, ⟨5, _⟩ => ⟨S_, .f32⟩
  | .hbm, ⟨6, _⟩ => ⟨S32x64x128, .f32⟩
  | .hbm, ⟨7, _⟩ => ⟨S32x64x128, .i1⟩
  | .hbm, ⟨8, _⟩ => ⟨S32x64x128, .f32⟩
  | .hbm, ⟨9, _⟩ => ⟨S32x64x128x1, .f32⟩
  | .hbm, ⟨10, _⟩ => ⟨S32x64x1x128, .f32⟩
  | .hbm, ⟨11, _⟩ => ⟨S32x64x128x128, .f32⟩
  | .hbm, ⟨12, _⟩ => ⟨S32x64x128x128, .f32⟩
  | .hbm, ⟨13, _⟩ => ⟨S32x64x128x128, .f32⟩
  | .hbm, ⟨14, _⟩ => ⟨S32x64x128x128, .f32⟩
  | _, _ => ⟨S32x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S32x64x128 : S_.BroadcastsInDim S32x64x128 (![] : Fin 0 → Fin S32x64x128.rank)
  bcast_S32x64x128_S32x64x128x1_0_1_2 : S32x64x128.BroadcastsInDim S32x64x128x1 (![0, 1, 2] : Fin 3 → Fin S32x64x128x1.rank)
  bcast_S32x64x128_S32x64x1x128_0_1_3 : S32x64x128.BroadcastsInDim S32x64x1x128 (![0, 1, 3] : Fin 3 → Fin S32x64x1x128.rank)
  bcast_S32x64x128x1_S32x64x128x128_0_1_2_3 : S32x64x128x1.BroadcastsInDim S32x64x128x128 (![0, 1, 2, 3] : Fin 4 → Fin S32x64x128x128.rank)
  bcast_S32x64x1x128_S32x64x128x128_0_1_2_3 : S32x64x1x128.BroadcastsInDim S32x64x128x128 (![0, 1, 2, 3] : Fin 4 → Fin S32x64x128x128.rank)

variable [Facts₀]

class Facts : Prop extends Facts₀ where

variable [Facts]
-- ==== Proof.GatedMoments.lean ====
/-
  A rectifier applied to a mean and to the covariance that travels with it.

  The inputs are a mean array `μ` over `(b, c, n)` — 32 × 64 × 128 — and, for each `(b, c)`, a 128 × 128 covariance
  `Σ` over `(b, c, p, q)`. Write `g x` for the indicator of `x > 0` as a number, `1` or `0`. The outputs are

      mean'(b, c, n)    = max (μ(b, c, n), 0)
      cov' (b, c, p, q) = (Σ(b, c, p, q) · g (μ(b, c, q))) · g (μ(b, c, p)) :

  a covariance entry survives exactly when both of the coordinates it couples are active. The product is written here
  column factor first, then row factor, with the indicator formed by comparing, widening the one-bit answer to 32 bits and
  reading that word as a signed integer. The same array is also `Σ · (g (row) · g (column))` with the indicator read
  straight off the one bit as an unsigned integer; the two facts that make these one function on the extended reals are
  at the end of this file: a bit widened with zeros is the same number signed or unsigned (`gate_eq_unsigned`), and
  multiplication of extended reals is associative and commutative (`regroup`), which holds at the infinities too, so
  nothing here asks that an entry be finite.
-/
import Idealize.ShloMosaic.PureOps.Ideal
import Idealize.ShloMosaic.Lib.ValueIdx

noncomputable section

namespace Cert.GatedMoments

open Idealize.ShloMosaic

/-- The shape of the mean: batch, channel, coordinate. -/
abbrev MeanShape : Shape := ⟨3, ![32, 64, 128]⟩
/-- The shape of the covariance: batch, channel, row coordinate, column coordinate. -/
abbrev CovShape : Shape := ⟨4, ![32, 64, 128, 128]⟩

/-- The mean entry that decides whether ROW `p` of the covariance entry `(b, c, p, q)` is active: `(b, c, p)`. -/
def rowOf (i : CovShape.Idx) : MeanShape.Idx := fun a => match a with
  | ⟨0, _⟩ => ⟨(i 0).val, (i 0).isLt⟩
  | ⟨1, _⟩ => ⟨(i 1).val, (i 1).isLt⟩
  | ⟨2, _⟩ => ⟨(i 2).val, (i 2).isLt⟩

/-- The mean entry that decides whether COLUMN `q` of the covariance entry `(b, c, p, q)` is active: `(b, c, q)`. -/
def colOf (i : CovShape.Idx) : MeanShape.Idx := fun a => match a with
  | ⟨0, _⟩ => ⟨(i 0).val, (i 0).isLt⟩
  | ⟨1, _⟩ => ⟨(i 1).val, (i 1).isLt⟩
  | ⟨2, _⟩ => ⟨(i 3).val, (i 3).isLt⟩

section AnyFloat

variable {F : FTy → Type} [FloatOps F]

/-- The indicator of `x > 0` as a float: the comparison's one bit, widened with zeros to 32 bits, read as a signed
    integer. -/
def gate (x : F .f32) : F .f32 :=
  FloatOps.sitofp (F := F) .f32 ((FloatOps.cmpf (F := F) .ogt x (FloatOps.ofBits (F := F) .f32 0x00000000#32)).setWidth 32)

/-- The rectified mean: each entry against zero. -/
def meanOut (mu : MeanShape.Idx → Elt F .f32) : MeanShape.Idx → Elt F .f32 :=
  fun i => FloatOps.maximumf (F := F) (mu i) (FloatOps.ofBits (F := F) .f32 0x00000000#32)

/-- The gated covariance: each entry times the indicator of its column's mean, then times the indicator of its row's. -/
def covOut (mu : MeanShape.Idx → Elt F .f32) (sg : CovShape.Idx → Elt F .f32) : CovShape.Idx → Elt F .f32 :=
  fun i => FloatOps.mulf (F := F) (FloatOps.mulf (F := F) (sg i) (gate (F := F) (mu (colOf i)))) (gate (F := F) (mu (rowOf i)))

end AnyFloat

/-! ## The two facts that join the arrangements, on the extended reals -/

/-- One bit widened with zeros to 32 bits is nonnegative, so reading it signed or unsigned gives the same integer. -/
theorem widened_bit_signed : ∀ b : BitVec 1, (b.setWidth 32).toInt = ((b.toNat : ℕ) : ℤ) := by decide

/-- So the indicator formed by widening and reading signed is the indicator read straight off the bit, unsigned. -/
theorem gate_eq_unsigned (x : Ideal .f32) :
    gate (F := Ideal) x
      = FloatOps.uitofp (F := Ideal) .f32 (FloatOps.cmpf (F := Ideal) .ogt x (FloatOps.ofBits (F := Ideal) .f32 0x00000000#32)) := by
  unfold gate
  show ((((FloatOps.cmpf (F := Ideal) .ogt x (FloatOps.ofBits (F := Ideal) .f32 0x00000000#32)).setWidth 32).toInt : ℝ) : EReal)
      = ((((FloatOps.cmpf (F := Ideal) .ogt x (FloatOps.ofBits (F := Ideal) .f32 0x00000000#32)).toNat : ℕ) : ℝ) : EReal)
  rw [widened_bit_signed, Int.cast_natCast]

/-- `s · (a · b) = (s · b) · a`: associativity and commutativity of the product, which the extended reals keep at the
    infinities (no distributive law is used, so no entry need be finite). -/
theorem regroup (s a b : EReal) : s * (a * b) = (s * b) * a := by
  rw [mul_comm a b, mul_assoc]

end Cert.GatedMoments

end
-- ==== Proof.LibUnitAxes.lean ====
/-
  Layout operations around a unit axis, read at an index written by coordinates.

  A rank-2 array `[a, b]` cast to `[a, b, 1]` keeps every element where it was (the new axis has one
  coordinate); a broadcast of `[a, b, 1]` to `[a, b, c]` repeats each element along the new last axis; a
  broadcast of `[1, a, b]` to `[m, a, b]` repeats the one slab along the new first axis.
-/
import Idealize.ShloMosaic.Lib.Pipeline.Value
import Idealize.ShloMosaic.Lib.ValueIdx

namespace Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j ⟨0, Nat.one_pos⟩) :=
  broadcastTo_apply x h _ _ (fun d => match d with
    | ⟨0, _⟩ => by
        show i.val = if a = 1 then 0 else i.val
        split
        · omega
        · rfl
    | ⟨1, _⟩ => by
        show j.val = if b = 1 then 0 else j.val
        split
        · omega
        · rfl
    | ⟨2, _⟩ => by
        show 0 = if (1 : ℕ) = 1 then 0 else k.val
        rw [if_pos rfl])

/-- A `[1, a, b]` array broadcast to `[m, a, b]` reads, at `(k, i, j)`, the operand at `(0, i, j)`. -/
theorem broadcastTo_1ab_mab_apply {m a b : ℕ} (x : (⟨3, ![1, a, b]⟩ : Shape).Idx → α)
    (h : (⟨3, ![1, a, b]⟩ : Shape).Broadcasts ⟨3, ![m, a, b]⟩) (k : Fin m) (i : Fin a) (j : Fin b) :
    broadcastTo ⟨3, ![m, a, b]⟩ x h (ix3 k i j) = x (ix3 ⟨0, Nat.one_pos⟩ i j) :=
  broadcastTo_apply x h _ _ (fun d => match d with
    | ⟨0, _⟩ => by
        show 0 = if (1 : ℕ) = 1 then 0 else k.val
        rw [if_pos rfl]
    | ⟨1, _⟩ => by
        show i.val = if a = 1 then 0 else i.val
        split
        · omega
        · rfl
    | ⟨2, _⟩ => by
        show j.val = if b = 1 then 0 else j.val
        split
        · omega
        · rfl)

end Idealize.ShloMosaic.ValueIdx
-- ==== Proof.LibHeadLayout.lean ====
/-
  Heads laid side by side in the columns of a matrix, stacked along a new leading axis and read back.

  A `[T, 8·D]`-like matrix holds eight heads of `D` columns each. Cutting the column range of head `n` out of it, viewing
  the cut as a `[1, T, D]` slab and stacking the eight slabs along the first axis gives the `[8, T, D]` array whose entry
  `(h, q, d)` is the matrix entry `(q, o_h + d)`, `o_h` the head's first column. Conversely slab `n` of an `[8, T, D]`
  array, squeezed to `[T, D]` and viewed as `[1, T, D]` again, has entry `(0, q, d)` equal to the array's `(n, q, d)`.
  Also here: an `[a, b]` array viewed as `[a, 1, b]`, and an `[a, 1, b]` array repeated along its middle axis.
-/
import Idealize.ShloMosaic.Lib.Pipeline.Value
import Idealize.ShloMosaic.Lib.ValueIdx
import Idealize.ShloMosaic.Lib.ValueLayout

namespace Cert.HeadLayout

open Idealize.ShloMosaic Idealize.ShloMosaic.ValueIdx

variable {α : Type}

/-- The `h`-th of eight things. -/
def sel8 {β : Type} (p0 p1 p2 p3 p4 p5 p6 p7 : β) (h : Fin 8) : β :=
  match h with
  | ⟨0, _⟩ => p0 | ⟨1, _⟩ => p1 | ⟨2, _⟩ => p2 | ⟨3, _⟩ => p3
  | ⟨4, _⟩ => p4 | ⟨5, _⟩ => p5 | ⟨6, _⟩ => p6 | ⟨7, _⟩ => p7

private theorem off_axis {T D : ℕ} (h : Fin 8) (q : Fin T) (d : Fin D)
    (hr : (⟨3, ![1, T, D]⟩ : Shape).rank = (⟨3, ![8, T, D]⟩ : Shape).rank) :
    ∀ b : Fin (⟨3, ![1, T, D]⟩ : Shape).rank, b.cast hr ≠ (0 : Fin 3) →
      ((ix3 (0 : Fin 1) q d : (⟨3, ![1, T, D]⟩ : Shape).Idx) b).val
        = ((ix3 h q d : (⟨3, ![8, T, D]⟩ : Shape).Idx) (b.cast hr)).val
  | ⟨0, _⟩, hb => absurd rfl hb
  | ⟨1, _⟩, _ => rfl
  | ⟨2, _⟩, _ => rfl

/-- Eight `[1, T, D]` slabs stacked along the first axis: entry `(h, q, d)` is slab `h`'s entry `(0, q, d)`. -/
theorem concat8_apply {T D : ℕ} (p0 p1 p2 p3 p4 p5 p6 p7 : (⟨3, ![1, T, D]⟩ : Shape).Idx → α)
    (hcat : Shape.Concatenates (([⟨⟨3, ![1, T, D]⟩, p0⟩, ⟨⟨3, ![1, T, D]⟩, p1⟩, ⟨⟨3, ![1, T, D]⟩, p2⟩, ⟨⟨3, ![1, T, D]⟩, p3⟩,
      ⟨⟨3, ![1, T, D]⟩, p4⟩, ⟨⟨3, ![1, T, D]⟩, p5⟩, ⟨⟨3, ![1, T, D]⟩, p6⟩, ⟨⟨3, ![1, T, D]⟩, p7⟩] :
        List ((s : Shape) × (s.Idx → α))).map (·.1)) ⟨3, ![8, T, D]⟩ 0)
    (h : Fin 8) (q : Fin T) (d : Fin D) :
    concatenate ⟨3, ![8, T, D]⟩ 0 [⟨⟨3, ![1, T, D]⟩, p0⟩, ⟨⟨3, ![1, T, D]⟩, p1⟩, ⟨⟨3, ![1, T, D]⟩, p2⟩, ⟨⟨3, ![1, T, D]⟩, p3⟩,
      ⟨⟨3, ![1, T, D]⟩, p4⟩, ⟨⟨3, ![1, T, D]⟩, p5⟩, ⟨⟨3, ![1, T, D]⟩, p6⟩, ⟨⟨3, ![1, T, D]⟩, p7⟩] hcat (ix3 h q d)
      = sel8 p0 p1 p2 p3 p4 p5 p6 p7 h (ix3 (0 : Fin 1) q d) :=
  concatenate_ofFn_unit_apply (t := ⟨3, ![8, T, D]⟩) (s₁ := ⟨3, ![1, T, D]⟩) (0 : Fin 3) (sel8 p0 p1 p2 p3 p4 p5 p6 p7) hcat rfl rfl
    (ix3 h q d) h rfl (ix3 (0 : Fin 1) q d) (off_axis h q d rfl)

/-- Columns `o … o + D − 1` of a `[T, C]` matrix, viewed as a `[1, T, D]` slab: entry `(u, q, d)` is the matrix entry
    `(q, o + d)`. -/
theorem headSlab_apply {T C D : ℕ} (x : (⟨2, ![T, C]⟩ : Shape).Idx → α) (o : ℕ)
    (hs : (⟨2, ![T, C]⟩ : Shape).Slices ![0, o] ⟨2, ![T, D]⟩) (hc : (⟨2, ![T, D]⟩ : Shape).ShapeCasts ⟨3, ![1, T, D]⟩)
    (u : Fin 1) (q : Fin T) (d : Fin D) (ho : o + d.val < C) :
    shapeCast ⟨3, ![1, T, D]⟩ (extractStridedSlice ⟨2, ![T, D]⟩ ![0, o] x hs) hc (ix3 u q d) = x (ix2 q ⟨o + d.val, ho⟩) := by
  rw [shapeCast_ab_1ab_apply]
  exact extractStridedSlice_apply _ x hs _ _ fun a => match a with
    | ⟨0, _⟩ => by show q.val = 0 + q.val; omega
    | ⟨1, _⟩ => rfl

/-- The same cut before it is viewed as a slab: entry `(q, d)` is the matrix entry `(q, o + d)`. -/
theorem headCut_apply {T C D : ℕ} (x : (⟨2, ![T, C]⟩ : Shape).Idx → α) (o : ℕ)
    (hs : (⟨2, ![T, C]⟩ : Shape).Slices ![0, o] ⟨2, ![T, D]⟩) (q : Fin T) (d : Fin D) (ho : o + d.val < C) :
    extractStridedSlice ⟨2, ![T, D]⟩ ![0, o] x hs (ix2 q d) = x (ix2 q ⟨o + d.val, ho⟩) :=
  extractStridedSlice_apply _ x hs _ _ fun a => match a with
    | ⟨0, _⟩ => by show q.val = 0 + q.val; omega
    | ⟨1, _⟩ => rfl

/-- Slab `n` of an `[H, T, D]` array, squeezed to `[T, D]` and viewed as `[1, T, D]` again: entry `(u, q, d)` is the
    array's `(n, q, d)`. -/
theorem slabOut_apply {H T D : ℕ} (v : (⟨3, ![H, T, D]⟩ : Shape).Idx → α) (n : ℕ) (hn : n < H)
    (hs : (⟨3, ![H, T, D]⟩ : Shape).Slices ![n, 0, 0] ⟨3, ![1, T, D]⟩)
    (hc1 : (⟨3, ![1, T, D]⟩ : Shape).ShapeCasts ⟨2, ![T, D]⟩) (hc2 : (⟨2, ![T, D]⟩ : Shape).ShapeCasts ⟨3, ![1, T, D]⟩)
    (u : Fin 1) (q : Fin T) (d : Fin D) :
    shapeCast ⟨3, ![1, T, D]⟩ (shapeCast ⟨2, ![T, D]⟩ (extractStridedSlice ⟨3, ![1, T, D]⟩ ![n, 0, 0] v hs) hc1) hc2 (ix3 u q d)
      = v (ix3 ⟨n, hn⟩ q d) := by
  rw [shapeCast_shapeCast]
  exact extractStridedSlice_apply _ v hs _ _ fun a => match a with
    | ⟨0, _⟩ => by show n = n + u.val; omega
    | ⟨1, _⟩ => by show q.val = 0 + q.val; omega
    | ⟨2, _⟩ => by show d.val = 0 + d.val; omega

/-- The squeezed slab alone: entry `(q, d)` of slab `n` squeezed to `[T, D]` is the array's `(n, q, d)`. -/
theorem slabSqueeze_apply {H T D : ℕ} (v : (⟨3, ![H, T, D]⟩ : Shape).Idx → α) (n : ℕ) (hn : n < H)
    (hs : (⟨3, ![H, T, D]⟩ : Shape).Slices ![n, 0, 0] ⟨3, ![1, T, D]⟩)
    (hc1 : (⟨3, ![1, T, D]⟩ : Shape).ShapeCasts ⟨2, ![T, D]⟩) (q : Fin T) (d : Fin D) :
    shapeCast ⟨2, ![T, D]⟩ (extractStridedSlice ⟨3, ![1, T, D]⟩ ![n, 0, 0] v hs) hc1 (ix2 q d) = v (ix3 ⟨n, hn⟩ q d) := by
  rw [shapeCast_1ab_ab_apply]
  exact extractStridedSlice_apply _ v hs _ _ fun a => match a with
    | ⟨0, _⟩ => by show n = n + 0; omega
    | ⟨1, _⟩ => by show q.val = 0 + q.val; omega
    | ⟨2, _⟩ => by show d.val = 0 + d.val; omega

/-- An `[a, b]` array viewed as `[a, 1, b]`: entry `(i, u, j)` is the operand's `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array repeated along its middle axis to `[a, m, b]`: entry `(i, k, j)` is the operand's `(i, 0, j)`. -/
theorem broadcastTo_a1b_amb_apply {a m b : ℕ} (x : (⟨3, ![a, 1, b]⟩ : Shape).Idx → α)
    (h : (⟨3, ![a, 1, b]⟩ : Shape).Broadcasts ⟨3, ![a, m, b]⟩) (i : Fin a) (k : Fin m) (j : Fin b) :
    broadcastTo ⟨3, ![a, m, b]⟩ x h (ix3 i k j) = x (ix3 i (0 : Fin 1) j) :=
  broadcastTo_apply x h _ _ (fun d => match d with
    | ⟨0, _⟩ => by
        show i.val = if a = 1 then 0 else i.val
        split
        · omega
        · rfl
    | ⟨1, _⟩ => by
        show 0 = if (1 : ℕ) = 1 then 0 else k.val
        rw [if_pos rfl]
    | ⟨2, _⟩ => by
        show j.val = if b = 1 then 0 else j.val
        split
        · omega
        · rfl)

end Cert.HeadLayout
-- ==== Proof.BlockPayload.lean ====
/-
  What one grid point computes, read entry by entry.

  A grid point holds one batch element: a mean block `M` over `(0, c, n)` and a covariance block `S` over
  `(0, c, p, q)`, 64 channels, 128 coordinates. The body drops the leading unit axis, forms the indicator tile
  `g (M(0, c, n))` over `(c, n)`, lays that tile out once as a row (`[64, 1, 128]`, repeated down the rows: the
  column's indicator) and once as a column (`[64, 128, 1]`, repeated along the columns: the row's indicator), multiplies
  the covariance by the first and then by the second, and puts the unit axis back. So, entry by entry,

      mean block out (u, c, n)    = max (M(u, c, n), 0)
      cov  block out (u, c, p, q) = (S(0, c, p, q) · g (M(0, c, q))) · g (M(0, c, p)).

  Each layout step is read at an index written by coordinates, one lemma per step.
-/
import proofs.«116726_j89541478187437_2_alg».proof.Proof.Gen.KernelIdeal.Skeleton
import proofs.«116726_j89541478187437_2_alg».proof.Proof.GatedMoments
import proofs.«116726_j89541478187437_2_alg».proof.Proof.LibUnitAxes
import proofs.«116726_j89541478187437_2_alg».proof.Proof.LibHeadLayout
import Idealize.ShloMosaic.Lib.Pipeline.Value
import Idealize.ShloMosaic.Lib.ValueIdx
import Idealize.ShloMosaic.Lib.ValueLayout

noncomputable section

namespace Cert.KernelIdeal.Block

open Cert.KernelIdeal Cert.KernelIdeal.Gen Cert.GatedMoments Cert.HeadLayout
open Idealize.ShloMosaic Idealize.ShloMosaic.ValueIdx

variable {F : FTy → Type} [FloatOps F]

/-- The mean block with its unit axis dropped: entry `(c, n)` is the block's `(0, c, n)`. -/
theorem meanTile_apply (M : Vec F S1x64x128 .f32) (c : Fin 64) (n : Fin 128) :
    k0_pay1 M (ix2 c n) = M (ix3 (0 : Fin 1) c n) :=
  shapeCast_1ab_ab_apply M shapeCasts_S1x64x128_S64x128 c n

/-- The indicator tile over `(c, n)`: compare the mean tile with zero, widen the bit, read it signed. -/
def gateTile (M : Vec F S1x64x128 .f32) : FVec F S64x128 .f32 :=
  sitofp .f32 (extui 32 (cmpf .ogt (k0_pay1 M) (broadcast S64x128 (Scalar.ofBits (F := F) .f32 0x00000000#32))) natLt_1_32)

/-- Entry `(c, n)` of the indicator tile is the indicator of the mean block's `(0, c, n)`. -/
theorem gateTile_apply (M : Vec F S1x64x128 .f32) (c : Fin 64) (n : Fin 128) :
    gateTile M (ix2 c n) = gate (F := F) (M (ix3 (0 : Fin 1) c n)) := by
  show FloatOps.sitofp (F := F) .f32 ((FloatOps.cmpf (F := F) .ogt (k0_pay1 M (ix2 c n)) (FloatOps.ofBits (F := F) .f32 0x00000000#32)).setWidth 32) = _
  rw [meanTile_apply]
  rfl

/-- The mean block the body stores, as the tree of its vector operations. -/
theorem meanPayload_eq (M : Vec F S1x64x128 .f32) :
    k0_pay2 M = shapeCast S1x64x128 (maximumf (k0_pay1 M) (broadcast S64x128 (Scalar.ofBits (F := F) .f32 0x00000000#32))) shapeCasts_S64x128_S1x64x128 := rfl

/-- Entry `(u, c, n)` of the stored mean block: the loaded entry against zero. -/
theorem meanPayload_apply (M : Vec F S1x64x128 .f32) (u : Fin 1) (c : Fin 64) (n : Fin 128) :
    k0_pay2 M (ix3 u c n) = FloatOps.maximumf (F := F) (M (ix3 (0 : Fin 1) c n)) (FloatOps.ofBits (F := F) .f32 0x00000000#32) := by
  rw [meanPayload_eq, shapeCast_ab_1ab_apply]
  show FloatOps.maximumf (F := F) (k0_pay1 M (ix2 c n)) (FloatOps.ofBits (F := F) .f32 0x00000000#32) = _
  rw [meanTile_apply]

/-- The covariance block the body stores, as the tree of its vector operations over the indicator tile. -/
theorem covPayload_eq (M : Vec F S1x64x128 .f32) (S : Vec F S1x64x128x128 .f32) :
    k0_pay3 M S = shapeCast S1x64x128x128
      (mulf (mulf (shapeCast S64x128x128 S shapeCasts_S1x64x128x128_S64x128x128)
          (broadcastTo S64x128x128 (shapeCast S64x1x128 (gateTile M) shapeCasts_S64x128_S64x1x128) broadcasts_S64x1x128_S64x128x128))
        (broadcastTo S64x128x128 (shapeCast S64x128x1 (gateTile M) shapeCasts_S64x128_S64x128x1) broadcasts_S64x128x1_S64x128x128))
      shapeCasts_S64x128x128_S1x64x128x128 := rfl

/-- Entry `(u, c, p, q)` of the stored covariance block: the loaded entry times the indicator of column `q`'s mean, then
    times the indicator of row `p`'s. -/
theorem covPayload_apply (M : Vec F S1x64x128 .f32) (S : Vec F S1x64x128x128 .f32)
    (u : Fin 1) (c : Fin 64) (p q : Fin 128) :
    k0_pay3 M S (ix4 u c p q)
      = FloatOps.mulf (F := F)
          (FloatOps.mulf (F := F) (S (ix4 (0 : Fin 1) c p q)) (gate (F := F) (M (ix3 (0 : Fin 1) c q))))
          (gate (F := F) (M (ix3 (0 : Fin 1) c p))) := by
  rw [covPayload_eq, shapeCast_abc_1abc_apply]
  show FloatOps.mulf (F := F)
      (FloatOps.mulf (F := F)
        (shapeCast S64x128x128 S shapeCasts_S1x64x128x128_S64x128x128 (ix3 c p q))
        (broadcastTo S64x128x128 (shapeCast S64x1x128 (gateTile M) shapeCasts_S64x128_S64x1x128) broadcasts_S64x1x128_S64x128x128 (ix3 c p q)))
      (broadcastTo S64x128x128 (shapeCast S64x128x1 (gateTile M) shapeCasts_S64x128_S64x128x1) broadcasts_S64x128x1_S64x128x128 (ix3 c p q)) = _
  rw [shapeCast_1abc_abc_apply, broadcastTo_a1b_amb_apply, shapeCast_ab_a1b_apply,
    broadcastTo_ab1_abc_apply, shapeCast_ab_ab1_apply, gateTile_apply, gateTile_apply]

end Cert.KernelIdeal.Block

end
-- ==== Proof.KernelArrays.lean ====
/-
  From what each grid point writes back to the two whole output arrays.

  The grid has 32 points and point `t` holds batch element `t`: every window's block at `t` is one batch element thick
  and starts at `(t, 0, 0)` — `(t, 0, 0, 0)` for the covariance — so entry `(u, c, n)` of a block is entry `(t, c, n)` of
  its array (`block_starts`, `meanBlock_apply`, `covBlock_apply`). What point `t` writes back is therefore block `t` of
  the rectified mean and of the gated covariance of the WHOLE input arrays (`mean_flushed`, `cov_flushed`). The 32 blocks
  tile each output array — index `i` lies in the block of point `i 0` (`mean_cover`, `cov_cover`) — so after the run each
  output array is that function everywhere (`mean_final`, `cov_final`), and `run` restates the kernel's run with both
  outputs so named and both inputs unchanged.
-/
import proofs.«116726_j89541478187437_2_alg».proof.Proof.Gen.KernelIdeal.Frame
import proofs.«116726_j89541478187437_2_alg».proof.Proof.BlockPayload
import Idealize.ShloMosaic.Lib.Pipeline.Value

noncomputable section

namespace Cert.KernelIdeal.Arrays

open Cert.KernelIdeal Cert.KernelIdeal.Gen Cert.KernelIdeal.Block Cert.GatedMoments
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- Every window's block at point `t` starts at batch element `t` and at zero on every other axis (decided over the 32
    points of the grid). -/
theorem block_starts : ∀ t : Fin cfg0.N,
    (win0_0.index t (0 : Fin 3) = t.val ∧ win0_0.index t (1 : Fin 3) = 0 ∧ win0_0.index t (2 : Fin 3) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 3) = t.val ∧ win0_2.index t (1 : Fin 3) = 0 ∧ win0_2.index t (2 : Fin 3) = 0)
    ∧ (win0_3.index t (0 : Fin 4) = t.val ∧ win0_3.index t (1 : Fin 4) = 0 ∧ win0_3.index t (2 : Fin 4) = 0 ∧ win0_3.index t (3 : Fin 4) = 0) :=
  (by decide +kernel : ∀ t : Fin grid0.N, _)

/-! ## The input blocks as parts of the input arrays -/

/-- Entry `y` of the mean window's block at point `t` is the mean array's entry at batch element `t`, same channel, same
    coordinate. -/
theorem meanBlock_apply (c : Dev nD) (t : Fin cfg0.N) (y : S1x64x128.Idx) (k : S32x64x128.Idx)
    (h0 : (k 0).val = t.val) (h1 : (k 1).val = (y 1).val) (h2 : (k 2).val = (y 2).val) :
    (iblk m c 0 t : Vec F S1x64x128 .f32) y = (V m c main_arg0 : S32x64x128.Idx → Elt F .f32) k := by
  obtain ⟨⟨e0, e1, e2⟩, -, -, -⟩ := block_starts t
  have hy0 : (y 0).val < 1 := (y 0).isLt
  unfold iblk
  rw [View.read_apply]
  show V m c main_arg0 _ = V m c main_arg0 _
  congr 1
  funext a
  apply Fin.ext
  match a with
  | ⟨0, _⟩ => show win0_0.index t 0 * 1 + 1 * (y 0).val = (k 0).val; omega
  | ⟨1, _⟩ => show win0_0.index t 1 * 64 + 1 * (y 1).val = (k 1).val; omega
  | ⟨2, _⟩ => show win0_0.index t 2 * 128 + 1 * (y 2).val = (k 2).val; omega

/-- Entry `y` of the covariance window's block at point `t` is the covariance array's entry at batch element `t`, same
    channel, same row and column. -/
theorem covBlock_apply (c : Dev nD) (t : Fin cfg0.N) (y : S1x64x128x128.Idx) (k : S32x64x128x128.Idx)
    (h0 : (k 0).val = t.val) (h1 : (k 1).val = (y 1).val) (h2 : (k 2).val = (y 2).val) (h3 : (k 3).val = (y 3).val) :
    (iblk m c 1 t : Vec F S1x64x128x128 .f32) y = (V m c main_arg1 : S32x64x128x128.Idx → Elt F .f32) k := by
  obtain ⟨-, ⟨e0, e1, e2, e3⟩, -, -⟩ := block_starts t
  have hy0 : (y 0).val < 1 := (y 0).isLt
  unfold iblk
  rw [View.read_apply]
  show V m c main_arg1 _ = V m c main_arg1 _
  congr 1
  funext a
  apply Fin.ext
  match a with
  | ⟨0, _⟩ => show win0_1.index t 0 * 1 + 1 * (y 0).val = (k 0).val; omega
  | ⟨1, _⟩ => show win0_1.index t 1 * 64 + 1 * (y 1).val = (k 1).val; omega
  | ⟨2, _⟩ => show win0_1.index t 2 * 128 + 1 * (y 2).val = (k 2).val; omega
  | ⟨3, _⟩ => show win0_1.index t 3 * 128 + 1 * (y 3).val = (k 3).val; omega

/-! ## What point `t` writes back -/

/-- The mean block point `t` stores, at block entry `j`, is the rectified mean of the whole mean array at the array
    index under `j`. -/
theorem mean_point (c : Dev nD) (t : Fin cfg0.N) (j : S1x64x128.Idx) :
    k0_pay2 (iblk m c 0 t) j
      = meanOut (F := F) (V m c main_arg0) (((cfg0.win 2).blk t).view.emb j) := by
  obtain ⟨u, ch, n, rfl⟩ : ∃ (u : Fin 1) (ch : Fin 64) (n : Fin 128), j = ix3 u ch n := ⟨j 0, j 1, j 2, eq_ix3 j⟩
  obtain ⟨-, -, ⟨e0, e1, e2⟩, -⟩ := block_starts t
  have hu : u.val < 1 := u.isLt
  refine (meanPayload_apply (iblk m c 0 t) u ch n).trans ?_
  unfold meanOut
  have hM : (iblk m c 0 t : Vec F S1x64x128 .f32) (ix3 (0 : Fin 1) ch n)
      = (V m c main_arg0 : S32x64x128.Idx → Elt F .f32) (((cfg0.win 2).blk t).view.emb (ix3 u ch n)) :=
    meanBlock_apply m c t _ _
      (by show win0_2.index t 0 * 1 + 1 * u.val = t.val; omega)
      (by show win0_2.index t 1 * 64 + 1 * ch.val = ch.val; omega)
      (by show win0_2.index t 2 * 128 + 1 * n.val = n.val; omega)
  rw [hM]

/-- The covariance block point `t` stores, at block entry `j`, is the gated covariance of the whole input arrays at the
    array index under `j`: the row's and the column's mean entries are those of batch element `t`. -/
theorem cov_point (c : Dev nD) (t : Fin cfg0.N) (j : S1x64x128x128.Idx) :
    k0_pay3 (iblk m c 0 t) (iblk m c 1 t) j
      = covOut (F := F) (V m c main_arg0) (V m c main_arg1) (((cfg0.win 3).blk t).view.emb j) := by
  obtain ⟨u, ch, p, q, rfl⟩ : ∃ (u : Fin 1) (ch : Fin 64) (p q : Fin 128), j = ix4 u ch p q :=
    ⟨j 0, j 1, j 2, j 3, eq_ix4 j⟩
  obtain ⟨-, -, -, ⟨e0, e1, e2, e3⟩⟩ := block_starts t
  have hu : u.val < 1 := u.isLt
  refine (covPayload_apply (iblk m c 0 t) (iblk m c 1 t) u ch p q).trans ?_
  unfold covOut
  have hS : (iblk m c 1 t : Vec F S1x64x128x128 .f32) (ix4 (0 : Fin 1) ch p q)
      = (V m c main_arg1 : S32x64x128x128.Idx → Elt F .f32) (((cfg0.win 3).blk t).view.emb (ix4 u ch p q)) :=
    covBlock_apply m c t _ _
      (by show win0_3.index t 0 * 1 + 1 * u.val = t.val; omega)
      (by show win0_3.index t 1 * 64 + 1 * ch.val = ch.val; omega)
      (by show win0_3.index t 2 * 128 + 1 * p.val = p.val; omega)
      (by show win0_3.index t 3 * 128 + 1 * q.val = q.val; omega)
  have hq : (iblk m c 0 t : Vec F S1x64x128 .f32) (ix3 (0 : Fin 1) ch q)
      = (V m c main_arg0 : S32x64x128.Idx → Elt F .f32) (colOf (((cfg0.win 3).blk t).view.emb (ix4 u ch p q))) :=
    meanBlock_apply m c t _ _
      (by show win0_3.index t 0 * 1 + 1 * u.val = t.val; omega)
      (by show win0_3.index t 1 * 64 + 1 * ch.val = ch.val; omega)
      (by show win0_3.index t 3 * 128 + 1 * q.val = q.val; omega)
  have hp : (iblk m c 0 t : Vec F S1x64x128 .f32) (ix3 (0 : Fin 1) ch p)
      = (V m c main_arg0 : S32x64x128.Idx → Elt F .f32) (rowOf (((cfg0.win 3).blk t).view.emb (ix4 u ch p q))) :=
    meanBlock_apply m c t _ _
      (by show win0_3.index t 0 * 1 + 1 * u.val = t.val; omega)
      (by show win0_3.index t 1 * 64 + 1 * ch.val = ch.val; omega)
      (by show win0_3.index t 2 * 128 + 1 * p.val = p.val; omega)
  rw [hS, hq, hp]

/-- What point `t` writes back to the mean output is block `t` of the rectified mean of the whole mean array. -/
theorem mean_flushed (c : Dev nD) (t : Fin cfg0.N) :
    (dats m 0 c).flushed 2 t = ((cfg0.win 2).blk t).view.read (Elt F) (meanOut (F := F) (V m c main_arg0)) := by
  show (cfg0.win 2).cut (grid0.coords t) ((dats m 0 c).after 2 t) = _
  rw [after0_2]
  unfold out0_2
  rw [View.canon_unit_zero zeros3]
  simp only [View.ld_unit_zero (S := S1x64x128) zeros3]
  funext j
  exact mean_point m c t j

/-- What point `t` writes back to the covariance output is block `t` of the gated covariance of the whole input arrays. -/
theorem cov_flushed (c : Dev nD) (t : Fin cfg0.N) :
    (dats m 0 c).flushed 3 t
      = ((cfg0.win 3).blk t).view.read (Elt F) (covOut (F := F) (V m c main_arg0) (V m c main_arg1)) := by
  show (cfg0.win 3).cut (grid0.coords t) ((dats m 0 c).after 3 t) = _
  rw [after0_3]
  unfold out0_3
  rw [View.canon_unit_zero zeros4]
  simp only [View.ld_unit_zero (S := S1x64x128) zeros3, View.ld_unit_zero (S := S1x64x128x128) zeros4]
  funext j
  exact cov_point m c t j

/-! ## The blocks tile the arrays -/

/-- An index of the mean output is in point `t`'s block iff each coordinate is in the block's range on its axis. -/
theorem mem_mean_block (t : Fin cfg0.N) (i : S32x64x128.Idx) :
    i ∈ ((cfg0.win 2).blk t).view.set ↔ ∀ a : Fin 3, win0_2.index t a * S1x64x128.size a ≤ (i a).val
      ∧ (i a).val < win0_2.index t a * S1x64x128.size a + S1x64x128.size a := by
  show i ∈ ((View.whole main_v0_0).slice (win0_2.rect t)).set ↔ _
  rw [View.set_slice_whole, Rect.mem_set_unit]
  exact Iff.rfl

/-- An index of the covariance output is in point `t`'s block iff each coordinate is in the block's range on its axis. -/
theorem mem_cov_block (t : Fin cfg0.N) (i : S32x64x128x128.Idx) :
    i ∈ ((cfg0.win 3).blk t).view.set ↔ ∀ a : Fin 4, win0_3.index t a * S1x64x128x128.size a ≤ (i a).val
      ∧ (i a).val < win0_3.index t a * S1x64x128x128.size a + S1x64x128x128.size a := by
  show i ∈ ((View.whole main_v0_1).slice (win0_3.rect t)).set ↔ _
  rw [View.set_slice_whole, Rect.mem_set_unit]
  exact Iff.rfl

/-- Every index of the mean output lies in the block of the point that holds its batch element. -/
theorem mean_cover (i : S32x64x128.Idx) :
    ∃ t : Fin cfg0.N, (cfg0.win 2).flush t = true ∧ i ∈ ((cfg0.win 2).blk t).view.set := by
  have hi0 : (i 0).val < 32 := (i 0).isLt
  have hi1 : (i 1).val < 64 := (i 1).isLt
  have hi2 : (i 2).val < 128 := (i 2).isLt
  obtain ⟨t, ht⟩ : ∃ t : Fin cfg0.N, t.val = (i 0).val := ⟨⟨(i 0).val, by rw [show cfg0.N = 32 from N_0]; exact hi0⟩, rfl⟩
  obtain ⟨-, -, ⟨e0, e1, e2⟩, -⟩ := block_starts t
  refine ⟨t, flush0_2 t, ?_⟩
  rw [mem_mean_block]
  intro a
  match a with
  | ⟨0, _⟩ => show win0_2.index t 0 * 1 ≤ (i 0).val ∧ (i 0).val < win0_2.index t 0 * 1 + 1; omega
  | ⟨1, _⟩ => show win0_2.index t 1 * 64 ≤ (i 1).val ∧ (i 1).val < win0_2.index t 1 * 64 + 64; omega
  | ⟨2, _⟩ => show win0_2.index t 2 * 128 ≤ (i 2).val ∧ (i 2).val < win0_2.index t 2 * 128 + 128; omega

/-- Every index of the covariance output lies in the block of the point that holds its batch element. -/
theorem cov_cover (i : S32x64x128x128.Idx) :
    ∃ t : Fin cfg0.N, (cfg0.win 3).flush t = true ∧ i ∈ ((cfg0.win 3).blk t).view.set := by
  have hi0 : (i 0).val < 32 := (i 0).isLt
  have hi1 : (i 1).val < 64 := (i 1).isLt
  have hi2 : (i 2).val < 128 := (i 2).isLt
  have hi3 : (i 3).val < 128 := (i 3).isLt
  obtain ⟨t, ht⟩ : ∃ t : Fin cfg0.N, t.val = (i 0).val := ⟨⟨(i 0).val, by rw [show cfg0.N = 32 from N_0]; exact hi0⟩, rfl⟩
  obtain ⟨-, -, -, ⟨e0, e1, e2, e3⟩⟩ := block_starts t
  refine ⟨t, flush0_3 t, ?_⟩
  rw [mem_cov_block]
  intro a
  match a with
  | ⟨0, _⟩ => show win0_3.index t 0 * 1 ≤ (i 0).val ∧ (i 0).val < win0_3.index t 0 * 1 + 1; omega
  | ⟨1, _⟩ => show win0_3.index t 1 * 64 ≤ (i 1).val ∧ (i 1).val < win0_3.index t 1 * 64 + 64; omega
  | ⟨2, _⟩ => show win0_3.index t 2 * 128 ≤ (i 2).val ∧ (i 2).val < win0_3.index t 2 * 128 + 128; omega
  | ⟨3, _⟩ => show win0_3.index t 3 * 128 ≤ (i 3).val ∧ (i 3).val < win0_3.index t 3 * 128 + 128; omega

/-! ## The output arrays after the run -/

/-- The mean output ends as the rectified mean of the mean input. -/
theorem mean_final (c : Dev nD) :
    (dats m 0 c).arrAt 2 cfg0.N = meanOut (F := F) (m ((c : Thread nD τ).loc main_arg0)) :=
  (dats m 0 c).arrAt_eq_of_cover 2 (meanOut (F := F) (V m c main_arg0)) (fun t _ => mean_flushed m c t) mean_cover

/-- The covariance output ends as the covariance input gated by the mean input's indicators. -/
theorem cov_final (c : Dev nD) :
    (dats m 0 c).arrAt 3 cfg0.N
      = covOut (F := F) (m ((c : Thread nD τ).loc main_arg0)) (m ((c : Thread nD τ).loc main_arg1)) :=
  (dats m 0 c).arrAt_eq_of_cover 3 (covOut (F := F) (V m c main_arg0) (V m c main_arg1)) (fun t _ => cov_flushed m c t) cov_cover

/-- The kernel's run, read: every weakly fair execution terminates with the mean output at the rectified mean, the
    covariance output at the gated covariance, and both inputs as launched. -/
theorem run : θ_run defs (onTc (τ := τ) (main (F := F))) ⟨m, fun _ => 0, ρ⟩ fun r => ∀ c : Dev nD,
      r.2.mem ((c : Thread nD τ).loc main_v0_0) = meanOut (F := F) (m ((c : Thread nD τ).loc main_arg0))
      ∧ r.2.mem ((c : Thread nD τ).loc main_v0_1)
          = covOut (F := F) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (mean_final m c),
      ((h c).1 3).trans (cov_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Arrays

end
-- ==== Proof.ReferenceArrays.lean ====
/-
  The reference computes the same two arrays.

  Its first result is `max (μ, 0)` entry by entry against a zero constant spread over the mean's shape: the rectified
  mean as it stands. Its second result is `Σ · (R · C)`, where the indicator `g' (μ)` — the comparison's bit read as an
  unsigned integer — is laid out once with a trailing unit axis and repeated along the columns (`R`: entry
  `(b, c, p, q)` is `g' (μ(b, c, p))`, the row's indicator) and once with a unit axis before the last and repeated down
  the rows (`C`: `g' (μ(b, c, q))`, the column's). Reading the broadcasts at an index gives, at `(b, c, p, q)`,

      Σ(b, c, p, q) · (g' (μ(b, c, p)) · g' (μ(b, c, q))),

  which is the gated covariance `(Σ · g (μ(b, c, q))) · g (μ(b, c, p))`: the two indicators are one number, and the
  product is regrouped by associativity and commutativity alone.
-/
import proofs.«116726_j89541478187437_2_alg».proof.Proof.Gen.ReferenceIdeal.Read
import proofs.«116726_j89541478187437_2_alg».proof.Proof.GatedMoments

noncomputable section

namespace Cert.ReferenceIdeal.Arrays

open Cert.ReferenceIdeal Cert.ReferenceIdeal.Gen Cert.ReferenceIdeal.Read Cert.GatedMoments
open Idealize.ShloMosaic

/-- The row's mean entry, as the reference reaches it: through the column-repeating broadcast and the trailing unit axis. -/
theorem row_index (i : S32x64x128x128.Idx) : idx_main_v4 (idx_main_v6 i) = rowOf i :=
  funext fun a => Fin.ext (by match a with | ⟨0, _⟩ => rfl | ⟨1, _⟩ => rfl | ⟨2, _⟩ => rfl)

/-- The column's mean entry, as the reference reaches it: through the row-repeating broadcast and the inner unit axis. -/
theorem col_index (i : S32x64x128x128.Idx) : idx_main_v5 (idx_main_v7 i) = colOf i :=
  funext fun a => Fin.ext (by match a with | ⟨0, _⟩ => rfl | ⟨1, _⟩ => rfl | ⟨2, _⟩ => rfl)

/-- The reference's first result is the rectified mean. -/
theorem mean_eq (x0 : (⟨S32x64x128, .f32⟩ : BufTy).Contents (Elt Ideal)) :
    val_main_v0 (F := Ideal) x0 = meanOut (F := Ideal) x0 := by
  funext i
  rw [val_main_v0_apply, val_main_call0_v0_apply, val_main_call0_cst_apply]
  rfl

/-- The reference's second result is the gated covariance. -/
theorem cov_eq (x0 : (⟨S32x64x128, .f32⟩ : BufTy).Contents (Elt Ideal))
    (x1 : (⟨S32x64x128x128, .f32⟩ : BufTy).Contents (Elt Ideal)) :
    val_main_v9 (F := Ideal) x0 x1 = covOut (F := Ideal) x0 x1 := by
  funext i
  rw [val_main_v9_apply, val_main_v8_apply,
    val_main_v6_apply, val_main_v4_apply, val_main_v3_apply, val_main_v2_apply, val_main_v1_apply, val_main_cst_apply,
    val_main_v7_apply, val_main_v5_apply, val_main_v3_apply, val_main_v2_apply, val_main_v1_apply, val_main_cst_apply,
    row_index, col_index]
  unfold covOut
  rw [gate_eq_unsigned, gate_eq_unsigned]
  exact regroup _ _ _

end Cert.ReferenceIdeal.Arrays

end
-- ==== Proof.lean ====
/-
  A rectifier on a mean and on the covariance that travels with it: the kernel against its plain reference.

  Inputs: a mean `μ` over `(b, c, n)`, 32 × 64 × 128, and a covariance `Σ` over `(b, c, p, q)`, 32 × 64 × 128 × 128.
  With `g x` the indicator of `x > 0` as a number, both programs return

      mean'(b, c, n)    = max (μ(b, c, n), 0)
      cov' (b, c, p, q) = Σ(b, c, p, q) · g (μ(b, c, p)) · g (μ(b, c, q)).

  The kernel walks the 32 batch elements, one per grid point, and at each multiplies the covariance block by the column's
  indicator and then by the row's, `(Σ · g_q) · g_p`, forming the indicator by widening the comparison's bit and reading
  it signed. The reference forms the outer product of the indicators first, `Σ · (g_p · g_q)`, reading the bit
  unsigned. On the extended reals these are one function: a bit widened with zeros is the same number signed or
  unsigned, and the product is associative and commutative — also at the infinities, so the finiteness of the inputs is
  never used.

  Proof/GatedMoments.lean states the two output arrays as functions of the inputs and proves those two facts;
  Proof/BlockPayload.lean reads what one grid point computes entry by entry; Proof/KernelArrays.lean goes from the blocks
  the points write back to the whole output arrays and restates the kernel's run; Proof/ReferenceArrays.lean reads the
  reference's two results as the same functions. Here the five claims are assembled: the two kernels' frames are their
  generated frames, the reference's frame is its run with the results dropped, the idealization rewrote nothing, and the
  two runs end at the same arrays.
-/
import proofs.«116726_j89541478187437_2_alg».proof.Defs
import proofs.«116726_j89541478187437_2_alg».proof.Proof.Gen.Kernel
import proofs.«116726_j89541478187437_2_alg».proof.Proof.Gen.Kernel.Skeleton
import proofs.«116726_j89541478187437_2_alg».proof.Proof.Gen.Kernel.Launch
import proofs.«116726_j89541478187437_2_alg».proof.Proof.Gen.Kernel.Points
import proofs.«116726_j89541478187437_2_alg».proof.Proof.Gen.Kernel.Frame
import proofs.«116726_j89541478187437_2_alg».proof.Proof.Gen.KernelIdeal
import proofs.«116726_j89541478187437_2_alg».proof.Proof.Gen.KernelIdeal.Skeleton
import proofs.«116726_j89541478187437_2_alg».proof.Proof.Gen.KernelIdeal.Launch
import proofs.«116726_j89541478187437_2_alg».proof.Proof.Gen.KernelIdeal.Points
import proofs.«116726_j89541478187437_2_alg».proof.Proof.Gen.KernelIdeal.Frame
import proofs.«116726_j89541478187437_2_alg».proof.Proof.Gen.ReferenceIdeal
import proofs.«116726_j89541478187437_2_alg».proof.Proof.Gen.Pre_finite_inputs
import proofs.«116726_j89541478187437_2_alg».proof.Proof.Gen.ReferenceIdeal.Run
import proofs.«116726_j89541478187437_2_alg».proof.Proof.Gen.ReferenceIdeal.Read
import proofs.«116726_j89541478187437_2_alg».proof.Proof.KernelArrays
import proofs.«116726_j89541478187437_2_alg».proof.Proof.ReferenceArrays
import Idealize.ShloMosaic.Adequacy
import Idealize.ShloMosaic.Init

noncomputable section

namespace Cert.Proof

open Idealize.ShloMosaic Idealize.ShloMosaic.TcCoe Idealize.SL.Sem

/-- The kernel as printed runs and leaves its inputs as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its inputs as they were: its run, with what it says of the results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- Reading the kernel on the extended reals rewrote none of its operations. -/
theorem preserves : Cert.preserves_Kernel_KernelIdeal := trivial

/-- From inputs that agree, the kernel ends with the rectified mean and the gated covariance of its inputs
    (`Cert.KernelIdeal.Arrays.run`), and the reference's two results are those functions of ITS inputs
    (`Cert.ReferenceIdeal.Arrays.mean_eq`, `cov_eq`), which are the same arrays. -/
theorem algebraic : Cert.algebraic_KernelIdeal_ReferenceIdeal := by
  intro m ρ m' ρ' _ hagree
  refine ⟨fun c => Cert.GatedMoments.meanOut (F := Ideal) (m ((c : Thread Cert.KernelIdeal.nD Cert.KernelIdeal.τ).loc Cert.KernelIdeal.main_arg0)),
    fun c => Cert.GatedMoments.covOut (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Arrays.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, Cert.ReferenceIdeal.Read.val_main_v0_eq, Cert.ReferenceIdeal.Arrays.mean_eq]
  · rw [(hagree c).1, (hagree c).2, Cert.ReferenceIdeal.Read.val_main_v9_eq, Cert.ReferenceIdeal.Arrays.cov_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
